-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .bf16⟩
  | .hbm, ⟨5, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  packedbf16_S1024x4096_S1024x4096_0_0 : (Rect.unit (s := S1024x4096) ![0, 0] S1024x4096.size inb_S1024x4096_S1024x4096_0_0).PackedRows (EltTy.packing .bf16)
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x8192 : Shape := ⟨2, ![4096, 8192]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x8192, .f32⟩
  | .hbm, ⟨5, _⟩ => ⟨S4096x8192, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  transposes_S4096x4096_S4096x4096_1_0 : S4096x4096.Transposes [1, 0] S4096x4096
  transposes_S8192x4096_S4096x8192_1_0 : S8192x4096.Transposes [1, 0] S4096x8192
  transposes_S4096x8192_S8192x4096_1_0 : S4096x8192.Transposes [1, 0] S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.Pieces.lean ====
/-
  What one run of the kernel body leaves behind, read back as values.

  The body keeps a narrowed copy of the current row band of x in a buffer that survives from one grid point to the
  next. At a point whose column block is the first one it refills that buffer from the band and then multiplies; at
  every other point it multiplies what the buffer already holds. Each of the three facts below says that the one
  whole-block store of a case leaves exactly its payload: the narrowed band in the carried buffer, and
  (band or carried contents) times the weight block plus the bias row in the output block.
-/
import proofs.«167741_g15444702397219_cont_week2b_1066_19_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-block access, as a constant function. -/
theorem hz : (![0, 0] : Fin 2 → Nat) = fun _ => 0 := funext fun a => by fin_cases a <;> rfl

/-- At a first column block the body overwrites the whole carried buffer with the row band, narrowed. -/
theorem scratch_A (c : Dev nD) (i : grid0.Coords) (a2 : Memref sig .tc .vmem S1024x4096 .f32) (h2 : a2.IsWhole) (a3 : Memref sig .tc .vmem S4096x512 .bf16) (h3 : a3.IsWhole) (a4 : Memref sig .tc .vmem S1x512 .f32) (h4 : a4.IsWhole) (a5 : Memref sig .tc .vmem S1024x512 .f32) (h5 : a5.IsWhole) (a6 : Memref sig .tc .vmem S1024x4096 .bf16) (h6 : a6.IsWhole) (hc : cond0_0 i)
    (x0 : Vec F S1024x4096 .f32) (x1 : Vec F S4096x512 .bf16) (x2 : Vec F S1x512 .f32) :
    sout0_A_0 c i a2 h2 a3 h3 a4 h4 a5 h5 a6 h6 hc x0 x1 x2 = k0_pay1 x0 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, View.ld_unit_zero (S := S1024x4096) hz]

/-- At a first column block the output block is the product of the band just narrowed (read back from the carried
    buffer) with the weight block, plus the bias row. -/
theorem out_A (c : Dev nD) (i : grid0.Coords) (a2 : Memref sig .tc .vmem S1024x4096 .f32) (h2 : a2.IsWhole) (a3 : Memref sig .tc .vmem S4096x512 .bf16) (h3 : a3.IsWhole) (a4 : Memref sig .tc .vmem S1x512 .f32) (h4 : a4.IsWhole) (a5 : Memref sig .tc .vmem S1024x512 .f32) (h5 : a5.IsWhole) (a6 : Memref sig .tc .vmem S1024x4096 .bf16) (h6 : a6.IsWhole) (hc : cond0_0 i)
    (x0 : Vec F S1024x4096 .f32) (x1 : Vec F S4096x512 .bf16) (x2 : Vec F S1x512 .f32) :
    out0_A_3 c i a2 h2 a3 h3 a4 h4 a5 h5 a6 h6 hc x0 x1 x2 = k0_pay2 (k0_pay1 x0) x1 x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x4096) _ hz]
  simp only [View.readAt_eq_ld, h2.read_unread, h3.read_unread, h4.read_unread, View.ld_unit_zero (S := S1024x4096) hz,
    View.ld_unit_zero (S := S4096x512) hz, View.ld_unit_zero (S := S1x512) hz]

/-- At any other column block the carried buffer is only read: the output block is the product of what it holds with
    the weight block, plus the bias row. -/
theorem out_B (c : Dev nD) (i : grid0.Coords) (a2 : Memref sig .tc .vmem S1024x4096 .f32) (h2 : a2.IsWhole) (a3 : Memref sig .tc .vmem S4096x512 .bf16) (h3 : a3.IsWhole) (a4 : Memref sig .tc .vmem S1x512 .f32) (h4 : a4.IsWhole) (a5 : Memref sig .tc .vmem S1024x512 .f32) (h5 : a5.IsWhole) (a6 : Memref sig .tc .vmem S1024x4096 .bf16) (h6 : a6.IsWhole) (hc : ¬cond0_0 i)
    (x0 : Vec F S1024x4096 .f32) (x1 : Vec F S4096x512 .bf16) (x2 : Vec F S1x512 .f32) (xs : Vec F S1024x4096 .bf16) :
    out0_B_3 c i a2 h2 a3 h3 a4 h4 a5 h5 a6 h6 hc x0 x1 x2 xs = k0_pay2 xs x1 x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h3.read_unread, h4.read_unread, h6.read_unread, View.ld_unit_zero (S := S1024x4096) hz,
    View.ld_unit_zero (S := S4096x512) hz, View.ld_unit_zero (S := S1x512) hz]

end Cert.KernelIdeal.Pieces

end
-- ==== Proof.Carry.lean ====
/-
  The buffer carried across the grid, followed point by point.

  The grid runs through the 8 column blocks of one row band before it moves to the next band, and x's window does not
  move inside a band. So the copy of the band made at the first column block is still the band of every later point of
  that band, and at every grid point the body computes (narrowed band of x) · (weight block) + (bias row).
-/
import proofs.«167741_g15444702397219_cont_week2b_1066_19_alg».proof.Proof.Pieces

noncomputable section

open Idealize.ShloMosaic Idealize.ShloMosaic.TcCoe Idealize.SL.Sem

namespace Cert.KernelIdeal.Carry

open Cert.KernelIdeal Cert.KernelIdeal.Gen Cert.KernelIdeal.Pieces

variable {F : FTy → Type} [FloatOps F]

variable (m : (ℓ : Loc nD τ sig) → Buf (Elt F) ℓ)

/-- The block index of x's window, decided over the 64 grid points: row band t / 8, column block 0. -/
theorem band_index : ∀ t : Fin cfg0.N, win0_0.index t (0 : Fin 2) = t.val / 8 ∧ win0_0.index t (1 : Fin 2) = 0 :=
  (by decide +kernel : ∀ t : Fin grid0.N, _)

/-- Two grid points of the same row band read the same block of x. -/
theorem band_eq (c : Dev nD) (t t' : Fin cfg0.N) (h : t.val / 8 = t'.val / 8) :
    (iblk m c 0 t : Vec F S1024x4096 .f32) = iblk m c 0 t' := by
  obtain ⟨e0, e1⟩ := band_index t
  obtain ⟨e0', e1'⟩ := band_index t'
  funext j
  show V m c main_arg0 (((cfg0.win 0).blk t).view.emb j) = V m c main_arg0 (((cfg0.win 0).blk t').view.emb j)
  refine congrArg (V m c main_arg0) ?_
  funext a; apply Fin.ext
  match a with
  | ⟨0, _⟩ => show win0_0.index t (0 : Fin 2) * 1024 + 1 * (j 0).val = win0_0.index t' (0 : Fin 2) * 1024 + 1 * (j 0).val; rw [e0, e0', h]
  | ⟨1, _⟩ => show win0_0.index t (1 : Fin 2) * 4096 + 1 * (j 1).val = win0_0.index t' (1 : Fin 2) * 4096 + 1 * (j 1).val; rw [e1, e1']

/-- After every grid point the carried buffer holds the narrowed row band of that point: refilled at a first column
    block, untouched (and the band unchanged) otherwise — by induction along the grid order. -/
theorem carried (c : Dev nD) : ∀ (n : ℕ) (h : n < cfg0.N), (outsAt0 m c n h).2 = k0_pay1 (iblk m c 0 ⟨n, h⟩)
  | 0, h => by
    rw [outsAt0_A m c ⟨0, h⟩ rfl]
    dsimp only
    exact scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl) (iblk m c 0 ⟨0, h⟩) (iblk m c 1 ⟨0, h⟩) (iblk m c 2 ⟨0, h⟩)
  | n + 1, h => by
    by_cases h0 : (n + 1) % 8 = 0
    · rw [outsAt0_A m c ⟨n + 1, h⟩ h0]
      dsimp only
      exact scratch_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩)
    · rw [outsAt0_B m c ⟨n + 1, h⟩ h0]
      dsimp only
      unfold sout0_B_0
      show (outsAt0 m c n (Nat.lt_of_succ_lt h)).2 = _
      rw [carried c n (Nat.lt_of_succ_lt h)]
      exact congrArg k0_pay1 (band_eq m c ⟨n, Nat.lt_of_succ_lt h⟩ ⟨n + 1, h⟩ (by show n / 8 = (n + 1) / 8; omega))

/-- So at EVERY grid point the output block is the narrowed row band times the weight block plus the bias row. -/
theorem block_out (c : Dev nD) (t : Fin cfg0.N) :
    (outsAt0 m c t.val t.isLt).1 = k0_pay2 (k0_pay1 (iblk m c 0 t)) (iblk m c 1 t) (iblk m c 2 t) := by
  by_cases h0 : t.val % 8 = 0
  · rw [outsAt0_A m c t h0]
    dsimp only
    exact out_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
  · rw [outsAt0_B m c t h0]
    dsimp only
    rw [out_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)]
    rw [carried m c (t.val - 1) (Nat.lt_of_le_of_lt (Nat.sub_le _ _) t.isLt)]
    have hb : (iblk m c 0 ⟨t.val - 1, Nat.lt_of_le_of_lt (Nat.sub_le _ _) t.isLt⟩ : Vec F S1024x4096 .f32) = iblk m c 0 t :=
      band_eq m c _ t (by show (t.val - 1) / 8 = t.val / 8; omega)
    rw [hb]

end Cert.KernelIdeal.Carry

end
-- ==== Proof.Payload.lean ====
/-
  The body's arithmetic at one entry of a block, over the extended reals.

  Narrowing to the 16-bit format is the identity on extended reals and the shape casts are between equal shapes, so
  entry (p, q) of the block the body stores is the sum over k of band(p, k) · weights(k, q) — the matrix product into a
  zero accumulator — plus the bias row's entry q.
-/
import proofs.«167741_g15444702397219_cont_week2b_1066_19_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx
open scoped BigOperators

/-- The matrix product's dimension numbers: contract axis 1 of the band with axis 0 of the weight block. -/
abbrev D : DotDims S1024x4096 S4096x512 S1024x512 := dot_S1024x4096_S4096x512_S1024x512_1_0_0_1_n_n

theorem lhs0 (i : S1024x512.Idx) (q : D.contr.Idx) : (D.lhsIdx i q 0).val = (i 0).val := by
  unfold DotDims.lhsIdx
  rw [dif_neg (show ¬(0 : Fin S1024x4096.rank) ∈ D.lhsBatch by decide), dif_pos (show (0 : Fin S1024x4096.rank) ∈ D.lhsNonContracting by decide)]
  rfl
theorem lhs1 (i : S1024x512.Idx) (q : D.contr.Idx) : (D.lhsIdx i q 1).val = (q ⟨0, by decide⟩).val :=
  D.lhsIdx_val_of_single rfl i q
theorem rhs0 (i : S1024x512.Idx) (q : D.contr.Idx) : (D.rhsIdx i q 0).val = (q ⟨0, by decide⟩).val :=
  D.rhsIdx_val_of_single rfl i q
theorem rhs1 (i : S1024x512.Idx) (q : D.contr.Idx) : (D.rhsIdx i q 1).val = (i 1).val := by
  unfold DotDims.rhsIdx
  rw [dif_neg (show ¬(1 : Fin S4096x512.rank) ∈ D.rhsBatch by decide), dif_pos (show (1 : Fin S4096x512.rank) ∈ D.rhsNonContracting by decide)]
  rfl

/-- The product into a zero accumulator, at entry (p, q): the sum over the 4096 contracted positions. -/
theorem product_apply (l : FVec Ideal S1024x4096 .bf16) (r : FVec Ideal S4096x512 .bf16) (p : Fin 1024) (q : Fin 512) :
    matmul D none l r (constant (F := Ideal) S1024x512 .f32 0x00000000#32) (ix2 p q) = ∑ k : Fin 4096, l (ix2 p k) * r (ix2 k q) := by
  refine (Ideal.matmul_constant_zero_apply D none l r (ix2 p q)).trans ?_
  rw [← Equiv.sum_comp (contrEquiv1 D 4096 rfl rfl).symm]
  refine Finset.sum_congr rfl fun k _ => ?_
  have hk := contrEquiv1_symm_val D 4096 rfl rfl k
  have el : D.lhsIdx (ix2 p q) ((contrEquiv1 D 4096 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 4096 rfl rfl).symm k) = ix2 k q := funext fun a => Fin.ext (by
    match a with
    | ⟨0, _⟩ => exact (rhs0 _ _).trans hk
    | ⟨1, _⟩ => exact rhs1 _ _)
  rw [el, er]

/-- The bias row stretched over the 1024 rows of a block reads its own entry q in every row. -/
theorem bias_apply (v : FVec Ideal S1x512 .f32) (p : Fin 1024) (q : Fin 512) :
    broadcastTo S1024x512 v broadcasts_S1x512_S1024x512 (ix2 p q) = v (ix2 (0 : Fin 1) q) :=
  broadcastTo_apply v broadcasts_S1x512_S1024x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

/-- Entry (p, q) of the stored block, from the band x0, the weight block x1 and the bias row x2. -/
theorem block_entry (x0 : FVec Ideal S1024x4096 .f32) (x1 : FVec Ideal S4096x512 .bf16) (x2 : FVec Ideal S1x512 .f32)
    (p : Fin 1024) (q : Fin 512) :
    k0_pay2 (F := Ideal) (k0_pay1 (F := Ideal) x0) x1 x2 (ix2 p q)
      = (∑ k : Fin 4096, x0 (ix2 p k) * x1 (ix2 k q)) + x2 (ix2 (0 : Fin 1) q) := by
  unfold k0_pay2 k0_pay1
  simp only [shapeCast_self]
  show matmul D none _ _ _ (ix2 p q) + broadcastTo S1024x512 x2 broadcasts_S1x512_S1024x512 (ix2 p q) = _
  rw [product_apply, bias_apply]
  rfl

/-- The same at any index of the block, named by its two coordinates. -/
theorem block_entry_at (x0 : FVec Ideal S1024x4096 .f32) (x1 : FVec Ideal S4096x512 .bf16) (x2 : FVec Ideal S1x512 .f32)
    (y : S1024x512.Idx) :
    k0_pay2 (F := Ideal) (k0_pay1 (F := Ideal) x0) x1 x2 y
      = (∑ k : Fin 4096, x0 (ix2 (⟨(y 0).val, idx2_lt0 y⟩ : Fin 1024) k) * x1 (ix2 k (⟨(y 1).val, idx2_lt1 y⟩ : Fin 512)))
        + x2 (ix2 (0 : Fin 1) (⟨(y 1).val, idx2_lt1 y⟩ : Fin 512)) := by
  obtain ⟨p, q, rfl⟩ : ∃ (p : Fin 1024) (q : Fin 512), y = ix2 p q := ⟨y 0, y 1, eq_ix2 y⟩
  exact block_entry x0 x1 x2 p q

end Cert.KernelIdeal.Payload

end
-- ==== Proof.Spec.lean ====
/-
  The affine map both programs compute, over the extended reals:
  entry (p, q) of the result is the sum over k of x(p, k) · w(k, q), plus b(q).
  The kernel multiplies x by w, the reference wᵀ by xᵀ and transposes back; the two differ only in the order of the two
  factors of each product, and multiplication of extended reals is commutative, so no finiteness is needed.
-/
import Idealize.ShloMosaic.PureOps.Ideal
import Idealize.ShloMosaic.Lib.ValueIdx

noncomputable section

open scoped BigOperators

namespace Cert.Affine

open Idealize.ShloMosaic Idealize.ShloMosaic.ValueIdx

/-- Entry (p, q) of x·w + b: row p of x against column q of w, plus the bias of column q. -/
def entry (x : (⟨2, ![8192, 4096]⟩ : Shape).Idx → EReal) (w : (⟨2, ![4096, 4096]⟩ : Shape).Idx → EReal)
    (b : (⟨1, ![4096]⟩ : Shape).Idx → EReal) (p : Fin 8192) (q : Fin 4096) : EReal :=
  (∑ k : Fin 4096, x (ix2 p k) * w (ix2 k q)) + b (ix1 q)

/-- The whole result array, index by index. -/
def affine (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => entry x w b ⟨(i 0).val, idx2_lt0 i⟩ ⟨(i 1).val, idx2_lt1 i⟩

/-- At an index given by its coordinates the array is the entry. -/
theorem affine_ix2 (x : (⟨2, ![8192, 4096]⟩ : Shape).Idx → EReal) (w : (⟨2, ![4096, 4096]⟩ : Shape).Idx → EReal)
    (b : (⟨1, ![4096]⟩ : Shape).Idx → EReal) (p : Fin 8192) (q : Fin 4096) :
    affine x w b (ix2 p q) = entry x w b p q := rfl

/-- At an index whose two coordinates are known the array is the entry at those coordinates. -/
theorem affine_of_coords (x : (⟨2, ![8192, 4096]⟩ : Shape).Idx → EReal) (w : (⟨2, ![4096, 4096]⟩ : Shape).Idx → EReal)
    (b : (⟨1, ![4096]⟩ : Shape).Idx → EReal) (i : (⟨2, ![8192, 4096]⟩ : Shape).Idx) (p : Fin 8192) (q : Fin 4096)
    (h0 : (i 0).val = p.val) (h1 : (i 1).val = q.val) : affine x w b i = entry x w b p q := by
  obtain rfl : i = ix2 p q := funext fun a => Fin.ext (by
    match a with
    | ⟨0, _⟩ => exact h0
    | ⟨1, _⟩ => exact h1)
  rfl

/-- The same entry with the factors of every product exchanged: the reference's order. -/
theorem entry_comm (x : (⟨2, ![8192, 4096]⟩ : Shape).Idx → EReal) (w : (⟨2, ![4096, 4096]⟩ : Shape).Idx → EReal)
    (b : (⟨1, ![4096]⟩ : Shape).Idx → EReal) (p : Fin 8192) (q : Fin 4096) :
    (∑ k : Fin 4096, w (ix2 k q) * x (ix2 p k)) + b (ix1 q) = entry x w b p q := by
  unfold entry
  exact congrArg (· + b (ix1 q)) (Finset.sum_congr rfl fun k _ => mul_comm _ _)

end Cert.Affine

end
-- ==== Proof.Blocks.lean ====
/-
  From blocks to the whole result array, over the extended reals.

  Grid point t works on row band t / 8 and column block t % 8. Its output block is rows 1024·(t / 8) … of the result and
  columns 512·(t % 8) …; the band it multiplies is the same rows of x, the weight block the same columns of w, the bias row
  the same columns of b. So what point t writes back is block t of ONE array — x·w + b — and the 64 blocks tile the
  result. The host operations in front of the region only narrow w (the identity on extended reals) and view b as a
  one-row matrix.
-/
import proofs.«167741_g15444702397219_cont_week2b_1066_19_alg».proof.Proof.Carry
import proofs.«167741_g15444702397219_cont_week2b_1066_19_alg».proof.Proof.Payload
import proofs.«167741_g15444702397219_cont_week2b_1066_19_alg».proof.Proof.Spec
import proofs.«167741_g15444702397219_cont_week2b_1066_19_alg».proof.Proof.Gen.KernelIdeal.Value
import Idealize.ShloMosaic.Lib.StableHlo.Run
import Idealize.ShloMosaic.Lib.ValueLayout

noncomputable section

open Idealize.ShloMosaic Idealize.ShloMosaic.TcCoe Idealize.SL.Sem

namespace Cert.KernelIdeal.Blocks

open Cert.KernelIdeal Cert.KernelIdeal.Gen Idealize.ShloMosaic.ValueIdx Cert.Affine
open Idealize.ShloMosaic.Pipeline (Dat)
open scoped BigOperators

variable (m : (ℓ : Loc nD τ sig) → Buf (Elt Ideal) ℓ) (ρ : Dev nD → PrngReg)

/-- A one-row matrix read as the vector of its row. -/
def rowOf (v : S1x4096.Idx → EReal) : S4096.Idx → EReal := fun j => v (ix2 (0 : Fin 1) (⟨(j 0).val, (j 0).isLt⟩ : Fin 4096))

/-- The result array in terms of the three arrays the region finds: x, the narrowed w, and b as a one-row matrix. -/
abbrev G (c : Dev nD) : S8192x4096.Idx → EReal :=
  affine (V m c main_arg0) (V m c main_v1) (rowOf (V m c main_v0))

/-- The block indices of the four windows, decided over the 64 grid points. -/
theorem grid_index : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = 0 ∧ win0_2.index t (1 : Fin 2) = t.val % 8
    ∧ win0_3.index t (0 : Fin 2) = t.val / 8 ∧ win0_3.index t (1 : Fin 2) = t.val % 8 :=
  (by decide +kernel : ∀ t : Fin grid0.N, _)

/-- Entry (p, k) of the band of x at point t is x at row 1024·(t / 8) + p. -/
theorem band_read (c : Dev nD) (t : Fin cfg0.N) (p : Fin 1024) (k : Fin 4096) (hb : t.val / 8 * 1024 + p.val < 8192) :
    iblk m c 0 t (ix2 p k) = V m c main_arg0 (ix2 (⟨t.val / 8 * 1024 + p.val, hb⟩ : Fin 8192) k) := by
  obtain ⟨e00, e01, -⟩ := grid_index t
  show V m c main_arg0 (((cfg0.win 0).blk t).view.emb (ix2 p k)) = _
  refine congrArg (V m c main_arg0) ?_
  funext a; apply Fin.ext
  match a with
  | ⟨0, _⟩ => show win0_0.index t (0 : Fin 2) * 1024 + 1 * p.val = t.val / 8 * 1024 + p.val; rw [e00]; omega
  | ⟨1, _⟩ => show win0_0.index t (1 : Fin 2) * 4096 + 1 * k.val = k.val; rw [e01]; omega

/-- Entry (k, q) of the weight block at point t is the narrowed w at column 512·(t % 8) + q. -/
theorem weight_read (c : Dev nD) (t : Fin cfg0.N) (k : Fin 4096) (q : Fin 512) (hb : t.val % 8 * 512 + q.val < 4096) :
    iblk m c 1 t (ix2 k q) = V m c main_v1 (ix2 k (⟨t.val % 8 * 512 + q.val, hb⟩ : Fin 4096)) := by
  obtain ⟨-, -, e10, e11, -⟩ := grid_index t
  show V m c main_v1 (((cfg0.win 1).blk t).view.emb (ix2 k q)) = _
  refine congrArg (V m c main_v1) ?_
  funext a; apply Fin.ext
  match a with
  | ⟨0, _⟩ => show win0_1.index t (0 : Fin 2) * 4096 + 1 * k.val = k.val; rw [e10]; omega
  | ⟨1, _⟩ => show win0_1.index t (1 : Fin 2) * 512 + 1 * q.val = t.val % 8 * 512 + q.val; rw [e11]; omega

/-- Entry q of the bias row at point t is the one-row b at column 512·(t % 8) + q. -/
theorem bias_read (c : Dev nD) (t : Fin cfg0.N) (q : Fin 512) (hb : t.val % 8 * 512 + q.val < 4096) :
    iblk m c 2 t (ix2 (0 : Fin 1) q) = V m c main_v0 (ix2 (0 : Fin 1) (⟨t.val % 8 * 512 + q.val, hb⟩ : Fin 4096)) := by
  obtain ⟨-, -, -, -, e20, e21, -⟩ := grid_index t
  show V m c main_v0 (((cfg0.win 2).blk t).view.emb (ix2 (0 : Fin 1) q)) = _
  refine congrArg (V m c main_v0) ?_
  funext a; apply Fin.ext
  match a with
  | ⟨0, _⟩ => show win0_2.index t (0 : Fin 2) * 1 + 1 * 0 = 0; rw [e20]
  | ⟨1, _⟩ => show win0_2.index t (1 : Fin 2) * 512 + 1 * q.val = t.val % 8 * 512 + q.val; rw [e21]; omega

/-- What grid point t writes back is block t of the one array x·w + b. -/
theorem flushed_eq (c : Dev nD) (t : Fin cfg0.N) :
    (dats m 0 c).flushed 3 t = ((cfg0.win 3).blk t).view.read (Elt Ideal) (G m c) := by
  rw [Cert.KernelIdeal.Value.flushed3, Carry.block_out m c t]
  obtain ⟨-, -, -, -, -, -, e30, e31⟩ := grid_index t
  have hN : t.val < 64 := lt_of_lt_of_eq t.isLt (show cfg0.N = 64 from N_0)
  funext j
  have hp : (j 0).val < 1024 := (j 0).isLt
  have hq : (j 1).val < 512 := (j 1).isLt
  show k0_pay2 (k0_pay1 (iblk m c 0 t)) (iblk m c 1 t) (iblk m c 2 t) j = G m c (((cfg0.win 3).blk t).view.emb j)
  refine ((Payload.block_entry_at (iblk m c 0 t) (iblk m c 1 t) (iblk m c 2 t) j).trans ?_).trans
    (affine_of_coords (V m c main_arg0) (V m c main_v1) (rowOf (V m c main_v0)) (((cfg0.win 3).blk t).view.emb j)
      (⟨t.val / 8 * 1024 + (j 0).val, by omega⟩ : Fin 8192) (⟨t.val % 8 * 512 + (j 1).val, by omega⟩ : Fin 4096)
      (by show win0_3.index t (0 : Fin 2) * 1024 + 1 * (j 0).val = t.val / 8 * 1024 + (j 0).val; rw [e30]; omega)
      (by show win0_3.index t (1 : Fin 2) * 512 + 1 * (j 1).val = t.val % 8 * 512 + (j 1).val; rw [e31]; omega)).symm
  unfold entry
  refine congrArg₂ (· + ·) (Finset.sum_congr rfl fun k _ => congrArg₂ (· * ·) ?_ ?_) ?_
  · exact band_read m c t ⟨(j 0).val, hp⟩ k (by show t.val / 8 * 1024 + (j 0).val < 8192; omega)
  · exact weight_read m c t k ⟨(j 1).val, hq⟩ (by show t.val % 8 * 512 + (j 1).val < 4096; omega)
  · exact bias_read m c t ⟨(j 1).val, hq⟩ (by show t.val % 8 * 512 + (j 1).val < 4096; omega)

/-- An index of the result lies in point t's block iff each coordinate lies in the block's range on its axis. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v2).slice (win0_3.rect t)).set ↔ _
  rw [View.set_slice_whole, Rect.mem_set_unit]
  exact Iff.rfl

/-- Every index of the result is in the block of the grid point of its row band and column block. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  have hlt : (i 0).val / 1024 * 8 + (i 1).val / 512 < cfg0.N := by rw [hN]; omega
  obtain ⟨-, -, -, -, -, -, e30, e31⟩ := grid_index ⟨(i 0).val / 1024 * 8 + (i 1).val / 512, hlt⟩
  have e30' : win0_3.index ⟨(i 0).val / 1024 * 8 + (i 1).val / 512, hlt⟩ (0 : Fin 2) = ((i 0).val / 1024 * 8 + (i 1).val / 512) / 8 := e30
  have e31' : win0_3.index ⟨(i 0).val / 1024 * 8 + (i 1).val / 512, hlt⟩ (1 : Fin 2) = ((i 0).val / 1024 * 8 + (i 1).val / 512) % 8 := e31
  refine ⟨⟨(i 0).val / 1024 * 8 + (i 1).val / 512, hlt⟩, flush0_3 _, ?_⟩
  rw [mem_blk]
  intro a
  match a with
  | ⟨0, _⟩ =>
    show win0_3.index ⟨(i 0).val / 1024 * 8 + (i 1).val / 512, hlt⟩ (0 : Fin 2) * 1024 ≤ (i 0).val
      ∧ (i 0).val < win0_3.index ⟨(i 0).val / 1024 * 8 + (i 1).val / 512, hlt⟩ (0 : Fin 2) * 1024 + 1024
    rw [e30']; omega
  | ⟨1, _⟩ =>
    show win0_3.index ⟨(i 0).val / 1024 * 8 + (i 1).val / 512, hlt⟩ (1 : Fin 2) * 512 ≤ (i 1).val
      ∧ (i 1).val < win0_3.index ⟨(i 0).val / 1024 * 8 + (i 1).val / 512, hlt⟩ (1 : Fin 2) * 512 + 512
    rw [e31']; omega

/-- So after the run the result array is x·w + b of the arrays the region finds. -/
theorem final (c : Dev nD) : (dats m 0 c).arrAt 3 cfg0.N = G m c :=
  (dats m 0 c).arrAt_eq_of_cover 3 (G m c) (fun t _ => flushed_eq m c t) cover

/-- The region finds w narrowed to the 16-bit format: on extended reals, w itself. -/
theorem weights_found (c : Dev nD) :
    (V m c main_v1 : S4096x4096.Idx → EReal) = m ((c : Thread nD τ).loc main_arg1) := by
  have e : (V m c main_v1 : S4096x4096.Idx → EReal)
      = truncf (F := Ideal) .bf16 (m ((c : Thread nD τ).loc main_arg1)) bitsLt_bf16_f32 := by
    dsimp only [Gen.V, Gen.hostOps0]; after_results
  rw [e]; rfl

/-- The region finds b as a one-row matrix, whose row is b. -/
theorem bias_found (c : Dev nD) :
    rowOf (V m c main_v0) = m ((c : Thread nD τ).loc main_arg2) := by
  have e : (V m c main_v0 : S1x4096.Idx → EReal)
      = shapeCast S1x4096 (m ((c : Thread nD τ).loc main_arg2)) shapeCasts_S4096_S1x4096 := by
    dsimp only [Gen.V, Gen.hostOps0]; after_results; rfl
  rw [e]
  funext j
  obtain ⟨q, rfl⟩ : ∃ q : Fin 4096, j = ix1 q := ⟨j 0, eq_ix1 j⟩
  exact shapeCast_a_1a_apply (m ((c : Thread nD τ).loc main_arg2)) shapeCasts_S4096_S1x4096 (0 : Fin 1) q

/-- The result array as the affine map of the three ARGUMENT arrays. -/
theorem result_eq (c : Dev nD) :
    G m c = affine (m ((c : Thread nD τ).loc main_arg0)) (m ((c : Thread nD τ).loc main_arg1)) (m ((c : Thread nD τ).loc main_arg2)) := by
  unfold G
  rw [V_main_arg0, weights_found, bias_found]

/-- The kernel's run: every weakly fair execution ends with the result array at x·w + b and the arguments unchanged. -/
theorem run : θ_run defs (onTc (τ := τ) (main (F := Ideal))) ⟨m, fun _ => 0, ρ⟩ fun r => ∀ c : Dev nD,
      r.2.mem ((c : Thread nD τ).loc main_v2)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (result_eq m c)), (h c).2⟩)
    (Cert.KernelIdeal.Value.run_blocks m ρ)

end Cert.KernelIdeal.Blocks

end
-- ==== Proof.Reference.lean ====
/-
  The reference computes the same affine map.

  It transposes both operands, multiplies wᵀ by xᵀ, transposes the product back and adds the bias stretched over the rows.
  Read at entry (p, q) this is the sum over k of w(k, q) · x(p, k), plus b(q): the kernel's sum with the two factors of
  every product exchanged.
-/
import proofs.«167741_g15444702397219_cont_week2b_1066_19_alg».proof.Proof.Gen.ReferenceIdeal.Read
import proofs.«167741_g15444702397219_cont_week2b_1066_19_alg».proof.Proof.Spec

noncomputable section

open Idealize.ShloMosaic Idealize.ShloMosaic.TcCoe Idealize.SL.Sem

namespace Cert.ReferenceIdeal.Bridge

open Cert.ReferenceIdeal Cert.ReferenceIdeal.Read Idealize.ShloMosaic.ValueIdx Cert.Affine
open scoped BigOperators

/-- Where the first factor of product k is read: w at (k, q). -/
theorem left_index (p : Fin 8192) (q : Fin 4096) (k : Fin 4096) :
    idx_main_v0 (lidx_main_v2 (idx_main_v3 (ix2 p q)) k) = ix2 k q :=
  funext fun a => match a with | ⟨0, _⟩ => rfl | ⟨1, _⟩ => rfl

/-- Where the second factor of product k is read: x at (p, k). -/
theorem right_index (p : Fin 8192) (q : Fin 4096) (k : Fin 4096) :
    idx_main_v1 (ridx_main_v2 (idx_main_v3 (ix2 p q)) k) = ix2 p k :=
  funext fun a => match a with | ⟨0, _⟩ => rfl | ⟨1, _⟩ => rfl

/-- Where the bias is read: b at q. -/
theorem bias_index (p : Fin 8192) (q : Fin 4096) : idx_main_v4 (idx_main_v5 (ix2 p q)) = ix1 q :=
  funext fun a => match a with | ⟨0, _⟩ => rfl

/-- The reference's result, index by index, is the affine map of its three arguments. -/
theorem result_eq (x0 : FVec Ideal S8192x4096 .f32) (x1 : FVec Ideal S4096x4096 .f32) (x2 : FVec Ideal S4096 .f32) :
    val_main_v6 (F := Ideal) x0 x1 x2 = affine x0 x1 x2 := by
  funext i
  obtain ⟨p, q, rfl⟩ : ∃ (p : Fin 8192) (q : Fin 4096), i = ix2 p q := ⟨i 0, i 1, eq_ix2 i⟩
  rw [affine_ix2, ← entry_comm, val_main_v6_apply, val_main_v3_apply, val_main_v2_apply, val_main_v5_apply, val_main_v4_apply]
  simp only [val_main_v0_apply, val_main_v1_apply, left_index, right_index, bias_index]
  rfl

end Cert.ReferenceIdeal.Bridge

end
-- ==== Proof.lean ====
/-
  Kernel and reference compute one affine map: out = x · w + b with x of shape [8192, 4096], w of shape [4096, 4096], b of length 4096.

  The kernel tiles the result into 8 × 8 blocks of 1024 rows by 512 columns. Each block is one product of a whole row band
  of x with a whole column block of w, plus the matching piece of b; the band is narrowed to a 16-bit format once per band
  and kept for the band's eight column blocks, and w is narrowed beforehand. Over the extended reals narrowing is the
  identity and the product into a zero accumulator is the plain sum over the 4096 contracted positions, so entry (p, q) of
  the kernel's result is the sum over k of x(p, k) · w(k, q), plus b(q).

  The reference forms wᵀ · xᵀ, transposes it back and adds b to every row: entry (p, q) is the sum over k of
  w(k, q) · x(p, k), plus b(q). The two sums agree term by term because multiplication of extended reals is commutative;
  no distributivity or cancellation is used, so the finiteness of the inputs is never needed.

  The three frame claims are the generated frames (for the reference, its generated run with the result dropped), and the
  idealization rewrote nothing, so that claim is trivial.
-/
import proofs.«167741_g15444702397219_cont_week2b_1066_19_alg».proof.Defs
import proofs.«167741_g15444702397219_cont_week2b_1066_19_alg».proof.Proof.Gen.Kernel
import proofs.«167741_g15444702397219_cont_week2b_1066_19_alg».proof.Proof.Gen.Kernel.Frame
import proofs.«167741_g15444702397219_cont_week2b_1066_19_alg».proof.Proof.Gen.KernelIdeal
import proofs.«167741_g15444702397219_cont_week2b_1066_19_alg».proof.Proof.Gen.KernelIdeal.Frame
import proofs.«167741_g15444702397219_cont_week2b_1066_19_alg».proof.Proof.Gen.KernelIdeal.Value
import proofs.«167741_g15444702397219_cont_week2b_1066_19_alg».proof.Proof.Gen.ReferenceIdeal
import proofs.«167741_g15444702397219_cont_week2b_1066_19_alg».proof.Proof.Gen.ReferenceIdeal.Run
import proofs.«167741_g15444702397219_cont_week2b_1066_19_alg».proof.Proof.Gen.ReferenceIdeal.Read
import proofs.«167741_g15444702397219_cont_week2b_1066_19_alg».proof.Proof.Gen.Pre_finite_inputs
import proofs.«167741_g15444702397219_cont_week2b_1066_19_alg».proof.Proof.Blocks
import proofs.«167741_g15444702397219_cont_week2b_1066_19_alg».proof.Proof.Reference
import Idealize.ShloMosaic.Adequacy
import Idealize.ShloMosaic.Init

noncomputable section

namespace Cert.Proof

open Idealize.ShloMosaic Idealize.SL.Sem

/-- The kernel as printed runs to the end and leaves its arguments alone. -/
theorem frame_kernel [Cert.Kernel.Facts] [Cert.Pre_finite_inputs.Facts] : Cert.frame_Kernel :=
  fun m ρ _ => Cert.Kernel.Gen.frame m ρ

/-- So does its reading over the extended reals. -/
theorem frame_kernel_ideal [Cert.KernelIdeal.Facts] [Cert.Pre_finite_inputs.Facts] : Cert.frame_KernelIdeal :=
  fun m ρ _ => Cert.KernelIdeal.Gen.frame m ρ

/-- The reference's run, with what it says about the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with x·w + b of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Affine.affine
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Bridge.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
